-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : IVec S1600000 32) (main_arg2 : IVec S1600000 32) (main_arg3 : FVec F S1600000 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩

abbrev nBuf : Space → Nat
  | .hbm => 22
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S1600000x1, .f32⟩
  | .hbm, ⟨15, _⟩ => ⟨S1600000x128, .f32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 22
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S1600000x1, .f32⟩
  | .hbm, ⟨15, _⟩ => ⟨S1600000x128, .f32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowsTimesWeight.lean ====
/-
  The result both programs compute, as one function of two arrays: for a table `A` of 100000 rows of 128 numbers and a
  128 × 128 weight matrix `W`, the entry in row `a` and column `b` is the sum over `c` of `A (a, c) · W (c, b)` — each
  output row is its row of `A` times `W`. Over the extended reals the sum is taken as it stands: only commutativity and
  associativity of the finite sum are ever used, so no entry needs to be finite.
-/
import Idealize.ShloMosaic.Lib.ValueIdx
import Idealize.ShloMosaic.PureOps.Ideal

noncomputable section

open scoped BigOperators

namespace Cert.RowsTimesWeight

open Idealize.ShloMosaic Idealize.ShloMosaic.ValueIdx

/-- Row `a` of `A` times `W`, read at column `b`: `∑ c, A (a, c) · W (c, b)`. -/
def rowsTimesWeight (A : FVec Ideal ⟨2, ![100000, 128]⟩ .f32) (W : FVec Ideal ⟨2, ![128, 128]⟩ .f32) :
    FVec Ideal ⟨2, ![100000, 128]⟩ .f32 :=
  fun i => ∑ c : Fin 128, A (ix2 (i 0) c) * W (ix2 c (i 1))

/-- Its entry at an index, through the index's two coordinates. -/
theorem rowsTimesWeight_at (A : FVec Ideal ⟨2, ![100000, 128]⟩ .f32) (W : FVec Ideal ⟨2, ![128, 128]⟩ .f32)
    (i : (⟨2, ![100000, 128]⟩ : Shape).Idx) :
    rowsTimesWeight A W i = ∑ c : Fin 128, A (ix2 (n0 := 100000) (n1 := 128) (i 0) c) * W (ix2 (n0 := 128) (n1 := 128) c (i 1)) := rfl

/-- The same at explicit coordinates. -/
theorem rowsTimesWeight_apply (A : FVec Ideal ⟨2, ![100000, 128]⟩ .f32) (W : FVec Ideal ⟨2, ![128, 128]⟩ .f32)
    (a : Fin 100000) (b : Fin 128) :
    rowsTimesWeight A W (ix2 a b) = ∑ c : Fin 128, A (ix2 a c) * W (ix2 c b) := rfl

-- Everything that follows reads the function through the two equations above.
attribute [irreducible] rowsTimesWeight

end Cert.RowsTimesWeight

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.BlockProduct.lean ====
/-
  What the kernel body stores for one block of 5000 rows: the block's rows, narrowed to bf16 (the identity on exact
  values), times the whole weight matrix, likewise narrowed, accumulated from zero. Read at row `p` and column `q` of the
  block it is `∑ c, x (p, c) · w (c, q)`. So whenever the loaded rows are rows of a table `A` and the loaded weights are `W`,
  the stored entry is the entry of `A` times `W` at the matching row.
-/
import proofs.«120489_j75213467287802_1_alg».proof.Proof.Gen.KernelIdeal.Skeleton
import proofs.«120489_j75213467287802_1_alg».proof.Proof.LibMatmul
import proofs.«120489_j75213467287802_1_alg».proof.Proof.RowsTimesWeight
import Idealize.ShloMosaic.Lib.Pipeline.Value

noncomputable section

open scoped BigOperators

namespace Cert.KernelIdeal.BlockProduct

open Cert.KernelIdeal Cert.KernelIdeal.Gen Idealize.ShloMosaic Idealize.ShloMosaic.ValueIdx Cert.RowsTimesWeight

/-- The stored block at `(p, q)`: the sum over the contracted coordinate of the loaded rows times the loaded weights. -/
theorem pay_apply (x : Vec Ideal S5000x128 .f32) (w : Vec Ideal S128x128 .f32) (p : Fin 5000) (q : Fin 128) :
    k0_pay1 (F := Ideal) x w (ix2 p q) = ∑ c : Fin 128, x (ix2 p c) * w (ix2 c q) := by
  unfold k0_pay1
  rw [shapeCast_self]
  exact Cert.LibMatmul.matmul_plain_zero_apply (φ₁ := .bf16) (φ₂ := .bf16) none
    (truncf (F := Ideal) .bf16 x bitsLt_bf16_f32) (truncf (F := Ideal) .bf16 w bitsLt_bf16_f32) p q

/-- The same at any index of the block, through its two coordinates. -/
theorem pay_at (x : Vec Ideal S5000x128 .f32) (w : Vec Ideal S128x128 .f32) (j : S5000x128.Idx) :
    k0_pay1 (F := Ideal) x w j
      = ∑ c : Fin 128, x (ix2 (n0 := 5000) (n1 := 128) (j 0) c) * w (ix2 (n0 := 128) (n1 := 128) c (j 1)) := by
  obtain ⟨p, q, rfl⟩ : ∃ (p : Fin 5000) (q : Fin 128), j = ix2 p q := ⟨j 0, j 1, eq_ix2 j⟩
  exact pay_apply x w p q

/-- If row `j 0` of the loaded block is row `i 0` of the table `A`, and the loaded weights' column `j 1` is column `i 1` of
    `W`, the entry stored at `j` is the entry of `A` times `W` at `i`. -/
theorem stored_entry (A : FVec Ideal S100000x128 .f32) (W : FVec Ideal S128x128 .f32)
    (x : Vec Ideal S5000x128 .f32) (w : Vec Ideal S128x128 .f32) (j : S5000x128.Idx) (i : S100000x128.Idx)
    (hx : ∀ c : Fin 128, x (ix2 (n0 := 5000) (n1 := 128) (j 0) c) = A (ix2 (n0 := 100000) (n1 := 128) (i 0) c))
    (hw : ∀ c : Fin 128, w (ix2 (n0 := 128) (n1 := 128) c (j 1)) = W (ix2 (n0 := 128) (n1 := 128) c (i 1))) :
    k0_pay1 (F := Ideal) x w j = rowsTimesWeight A W i := by
  rw [pay_at, rowsTimesWeight_at]
  exact Finset.sum_congr rfl fun c _ => by rw [hx c, hw c]

end Cert.KernelIdeal.BlockProduct

end
-- ==== Proof.EdgeSum.lean ====
/-
  The table the kernel's launch finds in its first operand. Before the launch the host gathers, for every edge, the row of
  `x` its column index names (a negative index counted from the end), scales that row by the edge's value, and adds the
  scaled rows into a zero table at the rows the edges' row indices name. That table is ONE function `edgeSum` of the four
  arrays; nothing below ever looks inside it — the product that follows treats it as an arbitrary table — so the gather and
  the scatter are never opened.
-/
import proofs.«120489_j75213467287802_1_alg».proof.Proof.Gen.KernelIdeal.Frame
import Idealize.ShloMosaic.Lib.StableHlo.Run

noncomputable section

namespace Cert.KernelIdeal.EdgeSum

open Cert.KernelIdeal Cert.KernelIdeal.Gen Idealize.ShloMosaic Idealize.ShloMosaic.TcCoe Idealize.SL.Sem
open Idealize.ShloMosaic.StableHlo

variable {F : FTy → Type} [FloatOps F]

/-- The edges' messages `x[col] · vals` summed by destination row: a 100000 × 128 table. -/
def edgeSum (x : (⟨S100000x128, .f32⟩ : BufTy).Contents (Elt F)) (row col : (⟨S1600000, .i32⟩ : BufTy).Contents (Elt F)) (vals : (⟨S1600000, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 row)
    (mulf
      (Host.gather gather_S100000x128_S1600000x1_S1600000x128_1_0_n_n_0_1_1128 x
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col)))
      (broadcastInDim S1600000x128 ![0, 1] bcast_S1600000x1_S1600000x128_0_1
        (broadcastInDim S1600000x1 ![0] bcast_S1600000_S1600000x1_0 vals)))

variable (m : (ℓ : Loc nD τ sig) → Buf (Elt F) ℓ)

/-- When the launch begins, its first operand's array holds `edgeSum` of the four argument arrays. -/
theorem V_main_v12 (c : Dev nD) :
    (V m c main_v12 : (⟨S100000x128, .f32⟩ : BufTy).Contents (Elt F))
      = edgeSum (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

end Cert.KernelIdeal.EdgeSum

end
-- ==== Proof.KernelValue.lean ====
/-
  The kernel's result array as one function of its arguments. The launch walks 20 grid points; point `t` loads rows
  `5000·t … 5000·t + 4999` of the summed-edges table and the whole weight matrix, and writes back the product as rows
  `5000·t … 5000·t + 4999` of the result. Row `r` of the result therefore comes from point `r / 5000`, and it is row `r` of the
  table times the weights: the 20 blocks tile the 100000 rows, so the array ends as the table times the weights everywhere.
-/
import proofs.«120489_j75213467287802_1_alg».proof.Proof.Gen.KernelIdeal.Value
import proofs.«120489_j75213467287802_1_alg».proof.Proof.RowsTimesWeight
import proofs.«120489_j75213467287802_1_alg».proof.Proof.BlockProduct
import proofs.«120489_j75213467287802_1_alg».proof.Proof.EdgeSum
import Idealize.ShloMosaic.Lib.Pipeline.Value

set_option maxRecDepth 16384

noncomputable section

open scoped BigOperators

namespace Cert.KernelIdeal.KernelValue

open Cert.KernelIdeal Cert.KernelIdeal.Gen Cert.KernelIdeal.Value Idealize.ShloMosaic Idealize.ShloMosaic.TcCoe Idealize.SL.Sem
open Idealize.ShloMosaic.ValueIdx Cert.RowsTimesWeight Cert.KernelIdeal.EdgeSum
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Where each window's block sits at point `t`: the table's and the result's blocks are block `t` along the rows, the
    weights' block is always the whole matrix (decided over the 20 points). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block `t` of the product, for ANY table `A` and weights `W`: the body's payload of rows `5000·t …` of `A` and of all of
    `W`, read through the result's block at `t`, is that block of `A` times `W`. -/
theorem block_eq (A : FVec Ideal S100000x128 .f32) (W : FVec Ideal S128x128 .f32) (t : Fin cfg0.N) :
    (cfg0.win 2).cut (grid0.coords t)
        (k0_pay1 (((cfg0.win 0).blk t).view.read (Elt Ideal) A) (((cfg0.win 1).blk t).view.read (Elt Ideal) W))
      = ((cfg0.win 2).blk t).view.read (Elt Ideal) (rowsTimesWeight A W) := by
  obtain ⟨e00, e01, e10, e11, e20, e21⟩ := block_indices t
  funext j
  show k0_pay1 _ _ (win0_2.xinj (grid0.coords t) j) = rowsTimesWeight A W (((cfg0.win 2).blk t).view.emb j)
  refine BlockProduct.stored_entry A W _ _ _ _ ?_ ?_
  · intro k
    show A (((cfg0.win 0).blk t).view.emb (ix2 (n0 := 5000) (n1 := 128) (win0_2.xinj (grid0.coords t) j 0) k)) = A _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · intro k
    show W (((cfg0.win 1).blk t).view.emb (ix2 (n0 := 128) (n1 := 128) k (win0_2.xinj (grid0.coords t) j 1))) = W _
    congr 1
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- What point `t` writes back is block `t` of the table times the weights, both as the launch finds them. -/
theorem flushed_eq (c : Dev nD) (t : Fin cfg0.N) :
    (dats m 0 c).flushed 2 t
      = ((cfg0.win 2).blk t).view.read (Elt Ideal) (rowsTimesWeight (V m c main_v12) (V m c main_arg4)) := by
  rw [Value.flushed2]
  unfold out0_2
  rw [View.canon_unit_zero origin]
  simp only [View.ld_unit_zero (S := S5000x128) origin, View.ld_unit_zero (S := S128x128) origin]
  unfold iblk
  exact block_eq (V m c main_v12) (V m c main_arg4) t

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v13).slice (win0_2.rect t)).set ↔ _
  rw [View.set_slice_whole, Rect.mem_set_unit]
  exact Iff.rfl

/-- Every index of the result lies in some point's block: row `r` in the block of point `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, e20, e21⟩ := block_indices t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the run: the table times the weights, as the launch finds them. -/
theorem final (c : Dev nD) :
    (dats m 0 c).arrAt 2 cfg0.N = rowsTimesWeight (V m c main_v12) (V m c main_arg4) :=
  (dats m 0 c).arrAt_eq_of_cover 2 (rowsTimesWeight (V m c main_v12) (V m c main_arg4)) (fun t _ => flushed_eq m c t) covered

/-- The run, read: the result is the summed-edges table of the four arguments times the weight argument, and every
    argument is as launched. -/
theorem run : θ_run defs (onTc (τ := τ) (main (F := Ideal))) ⟨m, fun _ => 0, ρ⟩ fun r => ∀ c : Dev nD,
      r.2.mem ((c : Thread nD τ).loc main_v13)
        = rowsTimesWeight (edgeSum (m ((c : Thread nD τ).loc main_arg0)) (m ((c : Thread nD τ).loc main_arg1)) (m ((c : Thread nD τ).loc main_arg2)) (m ((c : Thread nD τ).loc main_arg3))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by rw [V_main_v12 m c, V_main_arg4 m c])), (h c).2⟩)
    (Value.run_blocks m ρ)

end Cert.KernelIdeal.KernelValue

end
-- ==== Proof.LibDotGeneral.lean ====
/-
  A plain M × K by K × N host matrix product (`dot_general` contracting the left operand's second axis with the right
  operand's first), read at one entry: at the exact (extended real) values the entry (a, b) is the sum over the contracted
  coordinate c of A (a, c) · B (c, b), whatever schedule the host uses.
-/
import Idealize.ShloMosaic.Lib.ValueIdx
import Idealize.ShloMosaic.PureOps.Ideal.Laws

noncomputable section

open scoped BigOperators

namespace Cert.LibDotGeneral

open Idealize.ShloMosaic Idealize.ShloMosaic.ValueIdx

/-- The host product of an `M × K` by a `K × N` matrix, at entry `(a, b)`, is `∑ c, A (a, c) · B (c, b)` over the
    extended reals. -/
theorem dotGeneral_plain_apply {M K N : Nat} {φ₁ φ₂ : FTy} (prec : Option ContractPrecision) (sched : HostSchedule)
    (A : FVec Ideal ⟨2, ![M, K]⟩ φ₁) (B : FVec Ideal ⟨2, ![K, N]⟩ φ₂) (a : Fin M) (b : Fin N) :
    FloatOps.dotGeneral (DotDims.plain M K N) prec sched A B (ix2 a b) = ∑ c : Fin K, A (ix2 a c) * B (ix2 c b) := by
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibDotGeneral

end
-- ==== Proof.ReferenceValue.lean ====
/-
  The reference's result as the same function. Its last operation is one matrix product of the summed-edges table (its
  stage `%12`) by the weight argument, contracting the table's columns with the weights' rows; at the exact values that
  product's entry `(a, b)` is `∑ c, table (a, c) · W (c, b)`, whatever order the host adds in.
-/
import proofs.«120489_j75213467287802_1_alg».proof.Proof.Gen.ReferenceIdeal.Read
import proofs.«120489_j75213467287802_1_alg».proof.Proof.LibDotGeneral
import proofs.«120489_j75213467287802_1_alg».proof.Proof.RowsTimesWeight

noncomputable section

open scoped BigOperators

namespace Cert.ReferenceIdeal.RefValue

open Cert.ReferenceIdeal Cert.ReferenceIdeal.Gen Idealize.ShloMosaic Idealize.ShloMosaic.ValueIdx Cert.RowsTimesWeight

/-- The reference's result stage is its table stage times the weights. -/
theorem result_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal)) :
    Read.val_main_v13 (F := Ideal) x0 x1 x2 x3 x4 = rowsTimesWeight (Read.val_main_v12 (F := Ideal) x0 x1 x2 x3) x4 := by
  funext i
  obtain ⟨a, b, rfl⟩ : ∃ (a : Fin 100000) (b : Fin 128), i = ix2 a b := ⟨i 0, i 1, eq_ix2 i⟩
  rw [rowsTimesWeight_apply]
  unfold Read.val_main_v13
  exact Cert.LibDotGeneral.dotGeneral_plain_apply none _ (Read.val_main_v12 (F := Ideal) x0 x1 x2 x3) x4 a b

end Cert.ReferenceIdeal.RefValue

end
-- ==== Proof.lean ====
/-
  The kernel against its reference, over the extended reals.

  Both programs first build the same 100000 × 128 table on the host — for every edge, the row of `x` named by the edge's
  column index, scaled by the edge's value, added into the row named by the edge's row index — by the same sequence of
  operations with the same constants. The reference then multiplies that table by the 128 × 128 weight matrix in one
  product. The kernel multiplies it 5000 rows at a time over 20 grid points, narrowing both operands to bf16 first; on exact
  values the narrowing is the identity, a product accumulated from zero is the plain sum `∑ c, table (a, c) · W (c, b)`, and
  the 20 row blocks tile the table. So both results are that sum at every entry: no entry needs to be finite, and the
  precondition is not used. The table itself is never opened: the two programs' table terms are literally the same
  operations, and the product is taken of it as an arbitrary table.

  The three frames are the generated ones (the reference's is its run with the result dropped), and the kernel's
  idealization rewrote nothing, so that conjunct is trivial.
-/
import proofs.«120489_j75213467287802_1_alg».proof.Defs
import proofs.«120489_j75213467287802_1_alg».proof.Proof.Gen.Kernel.Frame
import proofs.«120489_j75213467287802_1_alg».proof.Proof.Gen.KernelIdeal.Frame
import proofs.«120489_j75213467287802_1_alg».proof.Proof.Gen.ReferenceIdeal.Run
import proofs.«120489_j75213467287802_1_alg».proof.Proof.Gen.Pre_finite_inputs
import proofs.«120489_j75213467287802_1_alg».proof.Proof.KernelValue
import proofs.«120489_j75213467287802_1_alg».proof.Proof.ReferenceValue

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The two programs build the table by the same operations of the same four arrays. -/
theorem table_eq (x0 : (⟨Cert.ReferenceIdeal.S100000x128, .f32⟩ : BufTy).Contents (Elt Ideal)) (x1 x2 : (⟨Cert.ReferenceIdeal.S1600000, .i32⟩ : BufTy).Contents (Elt Ideal))
    (x3 : (⟨Cert.ReferenceIdeal.S1600000, .f32⟩ : BufTy).Contents (Elt Ideal)) :
    Cert.ReferenceIdeal.Read.val_main_v12 (F := Ideal) x0 x1 x2 x3 = Cert.KernelIdeal.EdgeSum.edgeSum (F := Ideal) x0 x1 x2 x3 := rfl

/-- From memories that agree on the five arguments, both programs end with the table of the four edge arguments times
    the weight argument. -/
theorem algebraic : Cert.algebraic_KernelIdeal_ReferenceIdeal := by
  intro m ρ m' ρ' _ hagree
  refine ⟨fun c => Cert.RowsTimesWeight.rowsTimesWeight
      (Cert.KernelIdeal.EdgeSum.edgeSum (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, table_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
